-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S_ : Shape := ⟨0, ![]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  reducesTo_S_S_d : S_.ReducesTo [] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S256x128 .f32) (main_arg13 : FVec F S128 .f32) (main_v46 : IVec S_ 1) (main_v49 : IVec S256 1) (main_c_19 : IVec S_ 1) : IVec S_ 1 :=
  let main_v50 : IVec S_ 1 := (fun x v => Host.reduce IntOp.andi x v reducesTo_S256_S_d0 h_S_) main_v49 main_c_19
  let main_v51 : IVec S_ 1 := andi main_v46 main_v50
  let main_v52 : FVec F S256x128 .f32 := Host.absf main_arg12
  let main_cst_20 : FVec F S_ .f32 := constant S_ .f32 0x7F800000#32
  let main_v53 : FVec F S256x128 .f32 := broadcastInDim S256x128 ![] bcast_S_S256x128 main_cst_20
  let main_v54 : IVec S256x128 1 := cmpf .olt main_v52 main_v53
  let main_c_21 : IVec S_ 1 := constantI S_ 1 1#1
  let main_v55 : IVec S_ 1 := (fun x v => Host.reduce IntOp.andi x v reducesTo_S256x128_S_d0_1 h_S_) main_v54 main_c_21
  let main_v56 : IVec S_ 1 := andi main_v51 main_v55
  let main_v57 : FVec F S128 .f32 := Host.absf main_arg13
  let main_cst_22 : FVec F S_ .f32 := constant S_ .f32 0x7F800000#32
  let main_v58 : FVec F S128 .f32 := broadcastInDim S128 ![] bcast_S_S128 main_cst_22
  let main_v59 : IVec S128 1 := cmpf .olt main_v57 main_v58
  let main_c_23 : IVec S_ 1 := constantI S_ 1 1#1
  let main_v60 : IVec S_ 1 := (fun x v => Host.reduce IntOp.andi x v reducesTo_S128_S_d0 h_S_) main_v59 main_c_23
  let main_v61 : IVec S_ 1 := andi main_v56 main_v60
  main_v61

def fn_part2 {F : FTy → Type} [FloatOps F] (main_arg9 : FVec F S256 .f32) (main_arg10 : FVec F S256x256 .f32) (main_arg11 : FVec F S256 .f32) (main_arg12 : FVec F S256x128 .f32) (main_arg13 : FVec F S128 .f32) (main_v31 : IVec S_ 1) (main_v32 : FVec F S256x256 .f32) (main_cst_12 : FVec F S_ .f32) : IVec S_ 1 :=
  let main_v33 : FVec F S256x256 .f32 := broadcastInDim S256x256 ![] bcast_S_S256x256 main_cst_12
  let main_v34 : IVec S256x256 1 := cmpf .olt main_v32 main_v33
  let main_c_13 : IVec S_ 1 := constantI S_ 1 1#1
  let main_v35 : IVec S_ 1 := (fun x v => Host.reduce IntOp.andi x v reducesTo_S256x256_S_d0_1 h_S_) main_v34 main_c_13
  let main_v36 : IVec S_ 1 := andi main_v31 main_v35
  let main_v37 : FVec F S256 .f32 := Host.absf main_arg9
  let main_cst_14 : FVec F S_ .f32 := constant S_ .f32 0x7F800000#32
  let main_v38 : FVec F S256 .f32 := broadcastInDim S256 ![] bcast_S_S256 main_cst_14
  let main_v39 : IVec S256 1 := cmpf .olt main_v37 main_v38
  let main_c_15 : IVec S_ 1 := constantI S_ 1 1#1
  let main_v40 : IVec S_ 1 := (fun x v => Host.reduce IntOp.andi x v reducesTo_S256_S_d0 h_S_) main_v39 main_c_15
  let main_v41 : IVec S_ 1 := andi main_v36 main_v40
  let main_v42 : FVec F S256x256 .f32 := Host.absf main_arg10
  let main_cst_16 : FVec F S_ .f32 := constant S_ .f32 0x7F800000#32
  let main_v43 : FVec F S256x256 .f32 := broadcastInDim S256x256 ![] bcast_S_S256x256 main_cst_16
  let main_v44 : IVec S256x256 1 := cmpf .olt main_v42 main_v43
  let main_c_17 : IVec S_ 1 := constantI S_ 1 1#1
  let main_v45 : IVec S_ 1 := (fun x v => Host.reduce IntOp.andi x v reducesTo_S256x256_S_d0_1 h_S_) main_v44 main_c_17
  let main_v46 : IVec S_ 1 := andi main_v41 main_v45
  let main_v47 : FVec F S256 .f32 := Host.absf main_arg11
  let main_cst_18 : FVec F S_ .f32 := constant S_ .f32 0x7F800000#32
  let main_v48 : FVec F S256 .f32 := broadcastInDim S256 ![] bcast_S_S256 main_cst_18
  let main_v49 : IVec S256 1 := cmpf .olt main_v47 main_v48
  let main_c_19 : IVec S_ 1 := constantI S_ 1 1#1
  fn_part3 (F := F) main_arg12 main_arg13 main_v46 main_v49 main_c_19

def fn_part1 {F : FTy → Type} [FloatOps F] (main_arg5 : FVec F S256x256 .f32) (main_arg6 : FVec F S256 .f32) (main_arg7 : FVec F S_ .f32) (main_arg8 : FVec F S256x256 .f32) (main_arg9 : FVec F S256 .f32) (main_arg10 : FVec F S256x256 .f32) (main_arg11 : FVec F S256 .f32) (main_arg12 : FVec F S256x128 .f32) (main_arg13 : FVec F S128 .f32) (main_v12 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v12 main_v16
  let main_v18 : FVec F S256x256 .f32 := Host.absf main_arg5
  let main_cst_6 : FVec F S_ .f32 := constant S_ .f32 0x7F800000#32
  let main_v19 : FVec F S256x256 .f32 := broadcastInDim S256x256 ![] bcast_S_S256x256 main_cst_6
  let main_v20 : IVec S256x256 1 := cmpf .olt main_v18 main_v19
  let main_c_7 : IVec S_ 1 := constantI S_ 1 1#1
  let main_v21 : IVec S_ 1 := (fun x v => Host.reduce IntOp.andi x v reducesTo_S256x256_S_d0_1 h_S_) main_v20 main_c_7
  let main_v22 : IVec S_ 1 := andi main_v17 main_v21
  let main_v23 : FVec F S256 .f32 := Host.absf main_arg6
  let main_cst_8 : FVec F S_ .f32 := constant S_ .f32 0x7F800000#32
  let main_v24 : FVec F S256 .f32 := broadcastInDim S256 ![] bcast_S_S256 main_cst_8
  let main_v25 : IVec S256 1 := cmpf .olt main_v23 main_v24
  let main_c_9 : IVec S_ 1 := constantI S_ 1 1#1
  let main_v26 : IVec S_ 1 := (fun x v => Host.reduce IntOp.andi x v reducesTo_S256_S_d0 h_S_) main_v25 main_c_9
  let main_v27 : IVec S_ 1 := andi main_v22 main_v26
  let main_v28 : FVec F S_ .f32 := Host.absf main_arg7
  let main_cst_10 : FVec F S_ .f32 := constant S_ .f32 0x7F800000#32
  let main_v29 : IVec S_ 1 := cmpf .olt main_v28 main_cst_10
  let main_c_11 : IVec S_ 1 := constantI S_ 1 1#1
  let main_v30 : IVec S_ 1 := (fun x v => Host.reduce IntOp.andi x v reducesTo_S_S_d h_S_) main_v29 main_c_11
  let main_v31 : IVec S_ 1 := andi main_v27 main_v30
  let main_v32 : FVec F S256x256 .f32 := Host.absf main_arg8
  let main_cst_12 : FVec F S_ .f32 := constant S_ .f32 0x7F800000#32
  fn_part2 (F := F) main_arg9 main_arg10 main_arg11 main_arg12 main_arg13 main_v31 main_v32 main_cst_12

def fn {F : FTy → Type} [FloatOps F] (main_arg0 : FVec F S50000x128 .f32) (main_arg1 : IVec S2x800000 32) (main_arg2 : FVec F S_ .f32) (main_arg3 : FVec F S128x256 .f32) (main_arg4 : FVec F S256 .f32) (main_arg5 : FVec F S256x256 .f32) (main_arg6 : FVec F S256 .f32) (main_arg7 : FVec F S_ .f32) (main_arg8 : FVec F S256x256 .f32) (main_arg9 : FVec F S256 .f32) (main_arg10 : FVec F S256x256 .f32) (main_arg11 : FVec F S256 .f32) (main_arg12 : FVec F S256x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S128x256 .f32 := Host.absf main_arg3
  let main_cst_2 : FVec F S_ .f32 := constant S_ .f32 0x7F800000#32
  let main_v9 : FVec F S128x256 .f32 := broadcastInDim S128x256 ![] bcast_S_S128x256 main_cst_2
  let main_v10 : IVec S128x256 1 := cmpf .olt main_v8 main_v9
  let main_c_3 : IVec S_ 1 := constantI S_ 1 1#1
  let main_v11 : IVec S_ 1 := (fun x v => Host.reduce IntOp.andi x v reducesTo_S128x256_S_d0_1 h_S_) main_v10 main_c_3
  let main_v12 : IVec S_ 1 := andi main_v7 main_v11
  let main_v13 : FVec F S256 .f32 := Host.absf main_arg4
  let main_cst_4 : FVec F S_ .f32 := constant S_ .f32 0x7F800000#32
  let main_v14 : FVec F S256 .f32 := broadcastInDim S256 ![] bcast_S_S256 main_cst_4
  let main_v15 : IVec S256 1 := cmpf .olt main_v13 main_v14
  let main_c_5 : IVec S_ 1 := constantI S_ 1 1#1
  fn_part1 (F := F) main_arg5 main_arg6 main_arg7 main_arg8 main_arg9 main_arg10 main_arg11 main_arg12 main_arg13 main_v12 main_v15 main_c_5
-- ==== Kernel.lean ====
abbrev S50000x128 : Shape := ⟨2, ![50000, 128]⟩
abbrev S2x800000 : Shape := ⟨2, ![2, 800000]⟩
abbrev S_ : Shape := ⟨0, ![]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 74
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S_, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S_, .f32⟩
  | .hbm, ⟨20, _⟩ => ⟨S50000x128, .f32⟩
  | .hbm, ⟨21, _⟩ => ⟨S50000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S50000x128, .f32⟩
  | .hbm, ⟨40, _⟩ => ⟨S1x256, .f32⟩
  | .hbm, ⟨41, _⟩ => ⟨S1x256, .f32⟩
  | .hbm, ⟨42, _⟩ => ⟨S128x256, .bf16⟩
  | .hbm, ⟨43, _⟩ => ⟨S256x256, .bf16⟩
  | .hbm, ⟨44, _⟩ => ⟨S50000x256, .f32⟩
  | .hbm, ⟨45, _⟩ => ⟨S_, .f32⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S50000x256, .f32⟩
  | .hbm, ⟨67, _⟩ => ⟨S1x256, .f32⟩
  | .hbm, ⟨68, _⟩ => ⟨S1x256, .f32⟩
  | .hbm, ⟨69, _⟩ => ⟨S1x128, .f32⟩
  | .hbm, ⟨70, _⟩ => ⟨S256x256, .bf16⟩
  | .hbm, ⟨71, _⟩ => ⟨S256x256, .bf16⟩
  | .hbm, ⟨72, _⟩ => ⟨S256x128, .bf16⟩
  | .hbm, ⟨73, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .bf16⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S256x128, .bf16⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S256_S1x256 : S256.ShapeCasts S1x256
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .bf16 = 32 ∨ (Rect.block (s := S256x128) S256x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v20) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S_ : Shape := ⟨0, ![]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S_, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S50000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S50000x128, .f32⟩
  | .hbm, ⟨38, _⟩ => ⟨S_, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x256, .f32⟩
  | .hbm, ⟨44, _⟩ => ⟨S1x256, .f32⟩
  | .hbm, ⟨45, _⟩ => ⟨S50000x256, .f32⟩
  | .hbm, ⟨46, _⟩ => ⟨S50000x256, .f32⟩
  | .hbm, ⟨47, _⟩ => ⟨S_, .f32⟩
  | .hbm, ⟨48, _⟩ => ⟨S50000x256, .f32⟩
  | .hbm, ⟨49, _⟩ => ⟨S50000x256, .f32⟩
  | .hbm, ⟨50, _⟩ => ⟨S50000x256, .f32⟩
  | .hbm, ⟨51, _⟩ => ⟨S1x256, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S50000x256, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x256, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S50000x256, .f32⟩
  | .hbm, ⟨74, _⟩ => ⟨S_, .f32⟩
  | .hbm, ⟨75, _⟩ => ⟨S_, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S1x256, .f32⟩
  | .hbm, ⟨81, _⟩ => ⟨S50000x256, .f32⟩
  | .hbm, ⟨82, _⟩ => ⟨S50000x256, .f32⟩
  | .hbm, ⟨83, _⟩ => ⟨S_, .f32⟩
  | .hbm, ⟨84, _⟩ => ⟨S50000x256, .f32⟩
  | .hbm, ⟨85, _⟩ => ⟨S50000x256, .f32⟩
  | .hbm, ⟨86, _⟩ => ⟨S50000x256, .f32⟩
  | .hbm, ⟨87, _⟩ => ⟨S1x256, .f32⟩
  | .hbm, ⟨88, _⟩ => ⟨S50000x256, .f32⟩
  | .hbm, ⟨89, _⟩ => ⟨S50000x256, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call0_cst : Ref sig .tc := ⟨.hbm, 47, rfl⟩
abbrev main_call0_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_7 : Ref sig .tc := ⟨.hbm, 65, rfl⟩
abbrev main_v40 : Ref sig .tc := ⟨.hbm, 66, rfl⟩
abbrev main_v41 : Ref sig .tc := ⟨.hbm, 67, rfl⟩
abbrev main_c_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call1_cst : Ref sig .tc := ⟨.hbm, 83, rfl⟩
abbrev main_call1_v0 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelHost.lean ====
/-
  The host operations around the two kernels, read as functions of the arrays they start from.

  Before the first kernel the program splits the edge list into its source row and destination row, wraps negative
  node numbers (n < 0 becomes n + 50000), gathers the source nodes' feature rows and scatter-adds them at the destination
  nodes into (1 + eps)·x; it also recasts the biases as one-row matrices and rounds the weights to the short float format.
  Between the kernels it does the same aggregation on the first kernel's output with the second eps, and recasts the
  second layer's weights and biases.  Nothing here looks inside the aggregation: it is named and carried whole.
-/
import proofs.«107352_j44255343018792_2_alg».proof.Proof.Gen.KernelIdeal.Frame
import Idealize.ShloMosaic.Lib.StableHlo.Run
import Idealize.ShloMosaic.PureOps.Ideal.Laws
import Idealize.ShloMosaic.Lib.ValueIdx
import Idealize.ShloMosaic.Lib.Tactic

set_option maxRecDepth 16384

noncomputable section

namespace Cert.KernelIdeal.HostSide

open Idealize.ShloMosaic Idealize.ShloMosaic.TcCoe Idealize.ShloMosaic.Tactic Idealize.SL.Sem
open Cert.KernelIdeal Cert.KernelIdeal.Gen

/-- The edge list's source row. -/
def srcRow (e : IVec S2x800000 32) : IVec S800000 32 :=
  shapeCast S800000 (extractStridedSlice S1x800000 ![0, 0] e slices_S2x800000_S1x800000_0_0) shapeCasts_S1x800000_S800000

/-- The edge list's destination row. -/
def dstRow (e : IVec S2x800000 32) : IVec S800000 32 :=
  shapeCast S800000 (extractStridedSlice S1x800000 ![1, 0] e slices_S2x800000_S1x800000_1_0) shapeCasts_S1x800000_S800000

/-- Node numbers with the negative ones wrapped, as a column of start indices. -/
def wrap (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The first aggregation: the sources' rows scatter-added at the destinations into (1 + eps)·x. -/
def agg0 (x : FVec Ideal S50000x128 .f32) (s d : IVec S800000 32) (eps : FVec Ideal S_ .f32) : FVec Ideal S50000x128 .f32 :=
  Host.scatterAdd scatter_S50000x128_S800000x1_S800000x128_1_0_0_1
    (mulf (broadcastInDim S50000x128 ![] bcast_S_S50000x128 (addf (constant S_ .f32 0x3F800000#32) eps)) x) (wrap d)
    (Host.gather gather_S50000x128_S800000x1_S800000x128_1_0_n_n_0_1_1128 x (wrap s))

/-- The second aggregation, on 256 columns. -/
def agg1 (x : FVec Ideal S50000x256 .f32) (s d : IVec S800000 32) (eps : FVec Ideal S_ .f32) : FVec Ideal S50000x256 .f32 :=
  Host.scatterAdd scatter_S50000x256_S800000x1_S800000x256_1_0_0_1
    (mulf (broadcastInDim S50000x256 ![] bcast_S_S50000x256 (addf (constant S_ .f32 0x3F800000#32) eps)) x) (wrap d)
    (Host.gather gather_S50000x256_S800000x1_S800000x256_1_0_n_n_0_1_1256 x (wrap s))

variable (m : (ℓ : Loc nD τ sig) → Buf (Elt Ideal) ℓ) (ρ : Dev nD → PrngReg)

/-! ## The first kernel's arrays as it finds them -/

set_option maxHeartbeats 4000000 in
theorem V1_v20 (c : Dev nD) : (V1 m ρ c main_v20 : S50000x128.Idx → EReal)
    = agg0 (m ((c : Thread nD τ).loc main_arg0)) (srcRow (m ((c : Thread nD τ).loc main_arg1))) (dstRow (m ((c : Thread nD τ).loc main_arg1)))
        (m ((c : Thread nD τ).loc main_arg2)) := by
  dsimp only [V1, W1]
  after_results_simp
  rfl

theorem V1_v23 (c : Dev nD) : (V1 m ρ c main_v23 : S128x256.Idx → EReal)
    = (truncf (F := Ideal) .bf16 (m ((c : Thread nD τ).loc main_arg3) : FVec Ideal S128x256 .f32) bitsLt_bf16_f32 : FVec Ideal S128x256 .bf16) := by
  dsimp only [V1, W1]
  after_results_simp

theorem V1_v21 (c : Dev nD) : (V1 m ρ c main_v21 : S1x256.Idx → EReal)
    = shapeCast S1x256 (m ((c : Thread nD τ).loc main_arg4) : FVec Ideal S256 .f32) shapeCasts_S256_S1x256 := by
  dsimp only [V1, W1]
  after_results_simp
  rfl

theorem V1_v24 (c : Dev nD) : (V1 m ρ c main_v24 : S256x256.Idx → EReal)
    = (truncf (F := Ideal) .bf16 (m ((c : Thread nD τ).loc main_arg5) : FVec Ideal S256x256 .f32) bitsLt_bf16_f32 : FVec Ideal S256x256 .bf16) := by
  dsimp only [V1, W1]
  after_results_simp

theorem V1_v22 (c : Dev nD) : (V1 m ρ c main_v22 : S1x256.Idx → EReal)
    = shapeCast S1x256 (m ((c : Thread nD τ).loc main_arg6) : FVec Ideal S256 .f32) shapeCasts_S256_S1x256 := by
  dsimp only [V1, W1]
  after_results_simp
  rfl

/-- The two index rows, as the first stretch leaves them. -/
theorem W1_v1 (c : Dev nD) : (W1 m ρ c (Proc.devRef .tc main_v1) : S800000.Idx → BitVec 32) = srcRow (m ((c : Thread nD τ).loc main_arg1)) := by
  dsimp only [V1, W1]
  after_results_simp
  rfl

theorem W1_v3 (c : Dev nD) : (W1 m ρ c (Proc.devRef .tc main_v3) : S800000.Idx → BitVec 32) = dstRow (m ((c : Thread nD τ).loc main_arg1)) := by
  dsimp only [V1, W1]
  after_results_simp
  rfl

/-! ## What the first kernel leaves, where the second stretch reads it -/

/-- An argument is still as launched after the first kernel. -/
theorem W2_arg7 (c : Dev nD) : W2 m ρ c (Proc.devRef .tc main_arg7) = m ((c : Thread nD τ).loc main_arg7) :=
  (W2_of_ne m ρ c main_arg7 (by decide)).trans (by dsimp only [W1]; after_results_simp <;> rfl)
theorem W2_arg8 (c : Dev nD) : W2 m ρ c (Proc.devRef .tc main_arg8) = m ((c : Thread nD τ).loc main_arg8) :=
  (W2_of_ne m ρ c main_arg8 (by decide)).trans (by dsimp only [W1]; after_results_simp <;> rfl)
theorem W2_arg9 (c : Dev nD) : W2 m ρ c (Proc.devRef .tc main_arg9) = m ((c : Thread nD τ).loc main_arg9) :=
  (W2_of_ne m ρ c main_arg9 (by decide)).trans (by dsimp only [W1]; after_results_simp <;> rfl)
theorem W2_arg10 (c : Dev nD) : W2 m ρ c (Proc.devRef .tc main_arg10) = m ((c : Thread nD τ).loc main_arg10) :=
  (W2_of_ne m ρ c main_arg10 (by decide)).trans (by dsimp only [W1]; after_results_simp <;> rfl)
theorem W2_arg11 (c : Dev nD) : W2 m ρ c (Proc.devRef .tc main_arg11) = m ((c : Thread nD τ).loc main_arg11) :=
  (W2_of_ne m ρ c main_arg11 (by decide)).trans (by dsimp only [W1]; after_results_simp <;> rfl)
theorem W2_arg12 (c : Dev nD) : W2 m ρ c (Proc.devRef .tc main_arg12) = m ((c : Thread nD τ).loc main_arg12) :=
  (W2_of_ne m ρ c main_arg12 (by decide)).trans (by dsimp only [W1]; after_results_simp <;> rfl)
theorem W2_arg13 (c : Dev nD) : W2 m ρ c (Proc.devRef .tc main_arg13) = m ((c : Thread nD τ).loc main_arg13) :=
  (W2_of_ne m ρ c main_arg13 (by decide)).trans (by dsimp only [W1]; after_results_simp <;> rfl)

/-- The index rows are still what the first stretch made them. -/
theorem W2_v1 (c : Dev nD) : (W2 m ρ c (Proc.devRef .tc main_v1) : S800000.Idx → BitVec 32) = srcRow (m ((c : Thread nD τ).loc main_arg1)) :=
  (W2_of_ne m ρ c main_v1 (by decide)).trans (W1_v1 m ρ c)
theorem W2_v3 (c : Dev nD) : (W2 m ρ c (Proc.devRef .tc main_v3) : S800000.Idx → BitVec 32) = dstRow (m ((c : Thread nD τ).loc main_arg1)) :=
  (W2_of_ne m ρ c main_v3 (by decide)).trans (W1_v3 m ρ c)

/-! ## The second kernel's arrays as it finds them -/

set_option maxHeartbeats 4000000 in
theorem V3_v42 (c : Dev nD) : (V3 m ρ c main_v42 : S50000x256.Idx → EReal)
    = agg1 (W2 m ρ c (Proc.devRef .tc main_v25)) (W2 m ρ c (Proc.devRef .tc main_v1)) (W2 m ρ c (Proc.devRef .tc main_v3))
        (W2 m ρ c (Proc.devRef .tc main_arg7)) := by
  dsimp only [V3, W3]
  after_results_simp
  rfl

theorem V3_v46 (c : Dev nD) : (V3 m ρ c main_v46 : S256x256.Idx → EReal)
    = (truncf (F := Ideal) .bf16 (W2 m ρ c (Proc.devRef .tc main_arg8) : FVec Ideal S256x256 .f32) bitsLt_bf16_f32 : FVec Ideal S256x256 .bf16) := by
  dsimp only [V3, W3]
  after_results_simp

theorem V3_v43 (c : Dev nD) : (V3 m ρ c main_v43 : S1x256.Idx → EReal)
    = shapeCast S1x256 (W2 m ρ c (Proc.devRef .tc main_arg9) : FVec Ideal S256 .f32) shapeCasts_S256_S1x256 := by
  dsimp only [V3, W3]
  after_results_simp
  rfl

theorem V3_v47 (c : Dev nD) : (V3 m ρ c main_v47 : S256x256.Idx → EReal)
    = (truncf (F := Ideal) .bf16 (W2 m ρ c (Proc.devRef .tc main_arg10) : FVec Ideal S256x256 .f32) bitsLt_bf16_f32 : FVec Ideal S256x256 .bf16) := by
  dsimp only [V3, W3]
  after_results_simp

theorem V3_v44 (c : Dev nD) : (V3 m ρ c main_v44 : S1x256.Idx → EReal)
    = shapeCast S1x256 (W2 m ρ c (Proc.devRef .tc main_arg11) : FVec Ideal S256 .f32) shapeCasts_S256_S1x256 := by
  dsimp only [V3, W3]
  after_results_simp
  rfl

theorem V3_v48 (c : Dev nD) : (V3 m ρ c main_v48 : S256x128.Idx → EReal)
    = (truncf (F := Ideal) .bf16 (W2 m ρ c (Proc.devRef .tc main_arg12) : FVec Ideal S256x128 .f32) bitsLt_bf16_f32 : FVec Ideal S256x128 .bf16) := by
  dsimp only [V3, W3]
  after_results_simp

theorem V3_v45 (c : Dev nD) : (V3 m ρ c main_v45 : S1x128.Idx → EReal)
    = shapeCast S1x128 (W2 m ρ c (Proc.devRef .tc main_arg13) : FVec Ideal S128 .f32) shapeCasts_S128_S1x128 := by
  dsimp only [V3, W3]
  after_results_simp
  rfl

end Cert.KernelIdeal.HostSide

end
-- ==== Proof.KernelRun.lean ====
/-
  The program's run with its result named.

  The program is a stretch of host operations, the first kernel over its 25 row blocks, a second stretch of host
  operations, and the second kernel over its 25 row blocks.  Every weakly fair execution terminates, nothing faulting, and
  ends with every buffer that outlives the kernels at the contents the four segments compose to: the host stretches apply
  their operations, a kernel leaves its arrays at what its write-backs fold to and every other buffer as it was.  Read at
  the result buffer this names the result; read at an argument it gives back the launch contents.
-/
import proofs.«107352_j44255343018792_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last segment boundary's contents and each argument
    as launched. -/
theorem run_named : θ_run defs (onTc (τ := τ) (main (F := F))) ⟨m, fun _ => 0, ρ⟩ (fun r => ∀ c : Dev nD,
      r.2.mem ((c.tc : Thread nD τ).loc main_v49) = W4 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.Run

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.Mlp.lean ====
/-
  The dense part of one layer, row by row.

  A row h of a matrix goes through an affine map (h·W + b), the positive part, and a second affine map; an output
  row depends on its own input row only.  Arrays enter as functions of coordinates: a matrix by its rows, a weight
  by its two coordinates, a bias of shape [l] or [1, l] by its one free coordinate.  `ofRows` turns a family of rows
  back into a matrix.
-/
import Idealize.ShloMosaic.PureOps.Ideal.Laws
import Idealize.ShloMosaic.Lib.ValueIdx

noncomputable section

namespace Cert.Gin

open Idealize.ShloMosaic Idealize.ShloMosaic.ValueIdx
open scoped BigOperators

/-- h ↦ h·W + b on one row. -/
def affine {k l : ℕ} (h : Fin k → EReal) (W : Fin k → Fin l → EReal) (b : Fin l → EReal) : Fin l → EReal :=
  fun q => (∑ j : Fin k, h j * W j q) + b q

/-- The positive part of a row. -/
def pos {l : ℕ} (h : Fin l → EReal) : Fin l → EReal := fun q => max (h q) 0

/-- One layer's dense part on a row: affine, positive part, affine. -/
def mlpRow {k l r : ℕ} (h : Fin k → EReal) (W1 : Fin k → Fin l → EReal) (b1 : Fin l → EReal)
    (W2 : Fin l → Fin r → EReal) (b2 : Fin r → EReal) : Fin r → EReal :=
  affine (pos (affine h W1 b1)) W2 b2

/-- Row p of a matrix. -/
def rowOf {n k : ℕ} (x : (⟨2, ![n, k]⟩ : Shape).Idx → EReal) (p : Fin n) : Fin k → EReal := fun j => x (ix2 p j)

/-- A matrix by its two coordinates. -/
def matOf {k l : ℕ} (W : (⟨2, ![k, l]⟩ : Shape).Idx → EReal) : Fin k → Fin l → EReal := fun a b => W (ix2 a b)

/-- A vector by its coordinate. -/
def vecOf {l : ℕ} (b : (⟨1, ![l]⟩ : Shape).Idx → EReal) : Fin l → EReal := fun j => b (ix1 j)

/-- A one-row matrix by its column coordinate. -/
def rowVecOf {l : ℕ} (b : (⟨2, ![1, l]⟩ : Shape).Idx → EReal) : Fin l → EReal := fun j => b (ix2 (0 : Fin 1) j)

/-- The matrix whose row p is f p. -/
def ofRows {n l : ℕ} (f : Fin n → Fin l → EReal) : (⟨2, ![n, l]⟩ : Shape).Idx → EReal :=
  fun i => f ⟨(i 0).val, idx2_lt0 i⟩ ⟨(i 1).val, idx2_lt1 i⟩

theorem ofRows_ix2 {n l : ℕ} (f : Fin n → Fin l → EReal) (p : Fin n) (q : Fin l) : ofRows f (ix2 p q) = f p q := rfl

theorem rowOf_ofRows {n l : ℕ} (f : Fin n → Fin l → EReal) (p : Fin n) : rowOf (ofRows f) p = f p := rfl

/-- Two matrices with the same rows are equal. -/
theorem ext_rows {n l : ℕ} (x y : (⟨2, ![n, l]⟩ : Shape).Idx → EReal) (h : ∀ p q, x (ix2 p q) = y (ix2 p q)) : x = y :=
  funext fun i => by rw [eq_ix2 i]; exact h _ _

end Cert.Gin

end
-- ==== Proof.Payload.lean ====
/-
  What the two kernel bodies compute, entry by entry.

  The first body takes a block of 2000 rows and two weight matrices with their one-row biases and stores, at row p and
  column q, the dense part of a layer on row p: (max(h·W1 + b1, 0))·W2 + b2.  The second body does the same and then
  applies one more affine map, ·Wo + bo.  The roundings to the short float format on the way into each product are the
  identity on exact values, and a product into a zero accumulator is the plain sum over the contracted coordinate.
-/
import proofs.«107352_j44255343018792_2_alg».proof.Proof.Gen.KernelIdeal.Skeleton
import proofs.«107352_j44255343018792_2_alg».proof.Proof.LibDot
import proofs.«107352_j44255343018792_2_alg».proof.Proof.Mlp
import Idealize.ShloMosaic.Lib.Pipeline.Value
import Idealize.ShloMosaic.Lib.ValueLayout

noncomputable section

namespace Cert.KernelIdeal.Payload

open Idealize.ShloMosaic Idealize.ShloMosaic.ValueIdx Cert.KernelIdeal Cert.KernelIdeal.Gen Cert.Gin
open scoped BigOperators

/-! ## The three products' index maps: rows × contraction, contraction × columns -/

section Dots

theorem d1_l0 (j : S2000x256.Idx) (q : dot_S2000x128_S128x256_S2000x256_1_0_0_1_n_n.contr.Idx) :
    (dot_S2000x128_S128x256_S2000x256_1_0_0_1_n_n.lhsIdx j q 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem d1_l1 (j : S2000x256.Idx) (q : dot_S2000x128_S128x256_S2000x256_1_0_0_1_n_n.contr.Idx) :
    (dot_S2000x128_S128x256_S2000x256_1_0_0_1_n_n.lhsIdx j q 1).val = (q ⟨0, by decide⟩).val :=
  dot_S2000x128_S128x256_S2000x256_1_0_0_1_n_n.lhsIdx_val_of_single rfl j q
theorem d1_r0 (j : S2000x256.Idx) (q : dot_S2000x128_S128x256_S2000x256_1_0_0_1_n_n.contr.Idx) :
    (dot_S2000x128_S128x256_S2000x256_1_0_0_1_n_n.rhsIdx j q 0).val = (q ⟨0, by decide⟩).val :=
  dot_S2000x128_S128x256_S2000x256_1_0_0_1_n_n.rhsIdx_val_of_single rfl j q
theorem d1_r1 (j : S2000x256.Idx) (q : dot_S2000x128_S128x256_S2000x256_1_0_0_1_n_n.contr.Idx) :
    (dot_S2000x128_S128x256_S2000x256_1_0_0_1_n_n.rhsIdx j q 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

theorem d2_l0 (j : S2000x256.Idx) (q : dot_S2000x256_S256x256_S2000x256_1_0_0_1_n_n.contr.Idx) :
    (dot_S2000x256_S256x256_S2000x256_1_0_0_1_n_n.lhsIdx j q 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem d2_l1 (j : S2000x256.Idx) (q : dot_S2000x256_S256x256_S2000x256_1_0_0_1_n_n.contr.Idx) :
    (dot_S2000x256_S256x256_S2000x256_1_0_0_1_n_n.lhsIdx j q 1).val = (q ⟨0, by decide⟩).val :=
  dot_S2000x256_S256x256_S2000x256_1_0_0_1_n_n.lhsIdx_val_of_single rfl j q
theorem d2_r0 (j : S2000x256.Idx) (q : dot_S2000x256_S256x256_S2000x256_1_0_0_1_n_n.contr.Idx) :
    (dot_S2000x256_S256x256_S2000x256_1_0_0_1_n_n.rhsIdx j q 0).val = (q ⟨0, by decide⟩).val :=
  dot_S2000x256_S256x256_S2000x256_1_0_0_1_n_n.rhsIdx_val_of_single rfl j q
theorem d2_r1 (j : S2000x256.Idx) (q : dot_S2000x256_S256x256_S2000x256_1_0_0_1_n_n.contr.Idx) :
    (dot_S2000x256_S256x256_S2000x256_1_0_0_1_n_n.rhsIdx j q 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

theorem d3_l0 (j : S2000x128.Idx) (q : dot_S2000x256_S256x128_S2000x128_1_0_0_1_n_n.contr.Idx) :
    (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem d3_l1 (j : S2000x128.Idx) (q : dot_S2000x256_S256x128_S2000x128_1_0_0_1_n_n.contr.Idx) :
    (dot_S2000x256_S256x128_S2000x128_1_0_0_1_n_n.lhsIdx j q 1).val = (q ⟨0, by decide⟩).val :=
  dot_S2000x256_S256x128_S2000x128_1_0_0_1_n_n.lhsIdx_val_of_single rfl j q
theorem d3_r0 (j : S2000x128.Idx) (q : dot_S2000x256_S256x128_S2000x128_1_0_0_1_n_n.contr.Idx) :
    (dot_S2000x256_S256x128_S2000x128_1_0_0_1_n_n.rhsIdx j q 0).val = (q ⟨0, by decide⟩).val :=
  dot_S2000x256_S256x128_S2000x128_1_0_0_1_n_n.rhsIdx_val_of_single rfl j q
theorem d3_r1 (j : S2000x128.Idx) (q : dot_S2000x256_S256x128_S2000x128_1_0_0_1_n_n.contr.Idx) :
    (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The first product of the first body at (p, q). -/
theorem mm1 (lhs : FVec Ideal S2000x128 .bf16) (rhs : FVec Ideal S128x256 .bf16) (p : Fin 2000) (q : Fin 256) :
    matmul dot_S2000x128_S128x256_S2000x256_1_0_0_1_n_n none lhs rhs (constant S2000x256 .f32 0x00000000#32) (ix2 p q)
      = ∑ i : Fin 128, lhs (ix2 p i) * rhs (ix2 i q) :=
  Cert.LibDot.matmul_zero_apply dot_S2000x128_S128x256_S2000x256_1_0_0_1_n_n rfl rfl d1_l0 d1_l1 d1_r0 d1_r1 none lhs rhs p q

/-- A [2000,256] × [256,256] product at (p, q). -/
theorem mm2 (lhs : FVec Ideal S2000x256 .bf16) (rhs : FVec Ideal S256x256 .bf16) (p : Fin 2000) (q : Fin 256) :
    matmul dot_S2000x256_S256x256_S2000x256_1_0_0_1_n_n none lhs rhs (constant S2000x256 .f32 0x00000000#32) (ix2 p q)
      = ∑ i : Fin 256, lhs (ix2 p i) * rhs (ix2 i q) :=
  Cert.LibDot.matmul_zero_apply dot_S2000x256_S256x256_S2000x256_1_0_0_1_n_n rfl rfl d2_l0 d2_l1 d2_r0 d2_r1 none lhs rhs p q

/-- The last product of the second body at (p, q). -/
theorem mm3 (lhs : FVec Ideal S2000x256 .bf16) (rhs : FVec Ideal S256x128 .bf16) (p : Fin 2000) (q : Fin 128) :
    matmul dot_S2000x256_S256x128_S2000x128_1_0_0_1_n_n none lhs rhs (constant S2000x128 .f32 0x00000000#32) (ix2 p q)
      = ∑ i : Fin 256, lhs (ix2 p i) * rhs (ix2 i q) :=
  Cert.LibDot.matmul_zero_apply dot_S2000x256_S256x128_S2000x128_1_0_0_1_n_n rfl rfl d3_l0 d3_l1 d3_r0 d3_r1 none lhs rhs p q

end Dots

/-! ## The bodies -/

/-- The zero the positive part compares with. -/
theorem zero_word : Scalar.ofBits (F := Ideal) .f32 0x00000000#32 = (0 : EReal) := Ideal.ofBits_zero_f32

/-- The first body's stored value at (p, q): the layer's dense part on row p of the block, at column q. -/
theorem pay0_apply (x0 : FVec Ideal S2000x128 .f32) (x1 : FVec Ideal S128x256 .bf16) (x2 : FVec Ideal S1x256 .f32)
    (x3 : FVec Ideal S256x256 .bf16) (x4 : FVec Ideal S1x256 .f32) (p : Fin 2000) (q : Fin 256) :
    k0_pay1 (F := Ideal) x0 x1 x2 x3 x4 (ix2 p q)
      = mlpRow (rowOf x0 p) (matOf x1) (rowVecOf x2) (matOf x3) (rowVecOf x4) q := by
  unfold k0_pay1
  simp only [shapeCast_self]
  refine (addf_apply _ _ _).trans ?_
  rw [mm2, broadcastTo_1b_ab_apply]
  unfold mlpRow affine
  refine congrArg (· + x4 (ix2 (0 : Fin 1) q)) (Finset.sum_congr rfl fun l _ => ?_)
  refine congrArg (· * x3 (ix2 l q)) ?_
  rw [truncf_apply, maximumf_apply, addf_apply, mm1, broadcastTo_1b_ab_apply, broadcast_apply, zero_word]
  rfl

/-- The second body's stored value at (p, q): the layer's dense part on row p, then the last affine map, at column q. -/
theorem pay1_apply (x0 : FVec Ideal S2000x256 .f32) (x1 : FVec Ideal S256x256 .bf16) (x2 : FVec Ideal S1x256 .f32)
    (x3 : FVec Ideal S256x256 .bf16) (x4 : FVec Ideal S1x256 .f32) (x5 : FVec Ideal S256x128 .bf16) (x6 : FVec Ideal S1x128 .f32)
    (p : Fin 2000) (q : Fin 128) :
    k1_pay1 (F := Ideal) x0 x1 x2 x3 x4 x5 x6 (ix2 p q)
      = affine (mlpRow (rowOf x0 p) (matOf x1) (rowVecOf x2) (matOf x3) (rowVecOf x4)) (matOf x5) (rowVecOf x6) q := by
  unfold k1_pay1
  simp only [shapeCast_self]
  refine (addf_apply _ _ _).trans ?_
  rw [mm3, broadcastTo_1b_ab_apply]
  unfold affine
  refine congrArg (· + x6 (ix2 (0 : Fin 1) q)) (Finset.sum_congr rfl fun r _ => ?_)
  refine congrArg (· * x5 (ix2 r q)) ?_
  rw [truncf_apply, addf_apply, mm2, broadcastTo_1b_ab_apply]
  unfold mlpRow affine
  refine congrArg (· + x4 (ix2 (0 : Fin 1) r)) (Finset.sum_congr rfl fun l _ => ?_)
  refine congrArg (· * x3 (ix2 l r)) ?_
  rw [truncf_apply, maximumf_apply, addf_apply, mm2, broadcastTo_1b_ab_apply, broadcast_apply, zero_word]
  rfl

end Cert.KernelIdeal.Payload

end
-- ==== Proof.Region0.lean ====
/-
  The first kernel's output array.

  Point t of the grid takes rows 2000·t … 2000·t + 1999 of the node array and the whole of each weight and bias, and
  writes back rows 2000·t … 2000·t + 1999 of the output: row p of the block is the layer's dense part on row p of the
  input block.  So what a point writes is a block of one whole-array function — row P of the output is the dense part on
  row P of the input — and the 25 blocks cover the 50000 rows: the array ends holding that function.  Stated for any
  contents V the kernel may find in its arrays.
-/
import proofs.«107352_j44255343018792_2_alg».proof.Proof.Gen.KernelIdeal.Frame
import proofs.«107352_j44255343018792_2_alg».proof.Proof.Payload
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.Gin Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-- The output as one function of the five arrays: row P is the dense part on row P of the node array. -/
def G (h : S50000x128.Idx → EReal) (w1 : S128x256.Idx → EReal) (b1 : S1x256.Idx → EReal) (w2 : S256x256.Idx → EReal)
    (b2 : S1x256.Idx → EReal) : S50000x256.Idx → EReal :=
  ofRows fun P => mlpRow (rowOf h P) (matOf w1) (rowVecOf b1) (matOf w2) (rowVecOf b2)

/-- The block index maps over the grid: the node block and the output block move down the rows with the point, the weights
    and biases stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem row_lt (t : Fin cfg0.N) (p : Fin 2000) : t.val * 2000 + p.val < 50000 := by
  have hN : cfg0.N = 25 := N_0
  have := t.isLt; have := p.isLt; omega

/-- The node block at point t: rows 2000·t + p of the node array. -/
theorem blk_h (c : Dev nD) (t : Fin cfg0.N) (p : Fin 2000) (k : Fin 128) :
    (iblk0 V c 0 t : Vec Ideal S2000x128 .f32) (ix2 p k) = (V c main_v20 : S50000x128.Idx → EReal) (ix2 ⟨t.val * 2000 + p.val, row_lt t p⟩ k) := by
  obtain ⟨e0, e1, -⟩ := idx_facts t
  unfold iblk0
  rw [View.read_apply]
  show (V c main_v20 : S50000x128.Idx → EReal) _ = _
  refine congrArg (V c main_v20 : S50000x128.Idx → EReal) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The first weight's block at any point is the whole weight. -/
theorem blk_w1 (c : Dev nD) (t : Fin cfg0.N) (a : Fin 128) (b : Fin 256) :
    (iblk0 V c 1 t : Vec Ideal S128x256 .bf16) (ix2 a b) = (V c main_v23 : S128x256.Idx → EReal) (ix2 a b) := by
  obtain ⟨-, -, e0, e1, -⟩ := idx_facts t
  unfold iblk0
  rw [View.read_apply]
  show (V c main_v23 : S128x256.Idx → EReal) _ = _
  refine congrArg (V c main_v23 : S128x256.Idx → EReal) (funext fun x => Fin.ext ?_)
  match x with
  | ⟨0, _⟩ => show win0_1.index t (0 : Fin 2) * 128 + 1 * a.val = a.val; rw [e0]; omega
  | ⟨1, _⟩ => show win0_1.index t (1 : Fin 2) * 256 + 1 * b.val = b.val; rw [e1]; omega

theorem blk_b1 (c : Dev nD) (t : Fin cfg0.N) (b : Fin 256) :
    (iblk0 V c 2 t : Vec Ideal S1x256 .f32) (ix2 (0 : Fin 1) b) = (V c main_v21 : S1x256.Idx → EReal) (ix2 (0 : Fin 1) b) := by
  obtain ⟨-, -, -, -, e0, e1, -⟩ := idx_facts t
  unfold iblk0
  rw [View.read_apply]
  show (V c main_v21 : S1x256.Idx → EReal) _ = _
  refine congrArg (V c main_v21 : S1x256.Idx → EReal) (funext fun x => Fin.ext ?_)
  match x with
  | ⟨0, _⟩ => show win0_2.index t (0 : Fin 2) * 1 + 1 * 0 = 0; rw [e0]
  | ⟨1, _⟩ => show win0_2.index t (1 : Fin 2) * 256 + 1 * b.val = b.val; rw [e1]; omega

theorem blk_w2 (c : Dev nD) (t : Fin cfg0.N) (a : Fin 256) (b : Fin 256) :
    (iblk0 V c 3 t : Vec Ideal S256x256 .bf16) (ix2 a b) = (V c main_v24 : S256x256.Idx → EReal) (ix2 a b) := by
  obtain ⟨-, -, -, -, -, -, e0, e1, -⟩ := idx_facts t
  unfold iblk0
  rw [View.read_apply]
  show (V c main_v24 : S256x256.Idx → EReal) _ = _
  refine congrArg (V c main_v24 : S256x256.Idx → EReal) (funext fun x => Fin.ext ?_)
  match x with
  | ⟨0, _⟩ => show win0_3.index t (0 : Fin 2) * 256 + 1 * a.val = a.val; rw [e0]; omega
  | ⟨1, _⟩ => show win0_3.index t (1 : Fin 2) * 256 + 1 * b.val = b.val; rw [e1]; omega

theorem blk_b2 (c : Dev nD) (t : Fin cfg0.N) (b : Fin 256) :
    (iblk0 V c 4 t : Vec Ideal S1x256 .f32) (ix2 (0 : Fin 1) b) = (V c main_v22 : S1x256.Idx → EReal) (ix2 (0 : Fin 1) b) := by
  obtain ⟨-, -, -, -, -, -, -, -, e0, e1, -⟩ := idx_facts t
  unfold iblk0
  rw [View.read_apply]
  show (V c main_v22 : S1x256.Idx → EReal) _ = _
  refine congrArg (V c main_v22 : S1x256.Idx → EReal) (funext fun x => Fin.ext ?_)
  match x with
  | ⟨0, _⟩ => show win0_4.index t (0 : Fin 2) * 1 + 1 * 0 = 0; rw [e0]
  | ⟨1, _⟩ => show win0_4.index t (1 : Fin 2) * 256 + 1 * b.val = b.val; rw [e1]; omega

/-- What point t writes back is block t of G of the arrays. -/
theorem flushed_eq (c : Dev nD) (t : Fin cfg0.N) :
    (dat0 V c).flushed 5 t = ((cfg0.win 5).blk t).view.read (Elt Ideal)
      (G (V c main_v20) (V c main_v23) (V c main_v21) (V c main_v24) (V c main_v22)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz,
    View.ld_unit_zero (S := S256x256) hz]
  funext j
  obtain ⟨p, q, rfl⟩ : ∃ (p : Fin 2000) (q : Fin 256), j = ix2 p q := ⟨j 0, j 1, eq_ix2 j⟩
  refine (pay0_apply _ _ _ _ _ p q).trans ?_
  rw [View.read_apply]
  obtain ⟨-, -, -, -, -, -, -, -, -, -, e0, e1⟩ := idx_facts t
  have hemb : ((cfg0.win 5).blk t).view.emb (ix2 p q) = (ix2 ⟨t.val * 2000 + p.val, row_lt t p⟩ q : S50000x256.Idx) := by
    funext a; apply Fin.ext
    match a with
    | ⟨0, _⟩ => show win0_5.index t (0 : Fin 2) * 2000 + 1 * p.val = t.val * 2000 + p.val; rw [e0]; omega
    | ⟨1, _⟩ => show win0_5.index t (1 : Fin 2) * 256 + 1 * q.val = q.val; rw [e1]; omega
  rw [hemb]
  show _ = mlpRow (rowOf (V c main_v20 : S50000x128.Idx → EReal) ⟨t.val * 2000 + p.val, row_lt t p⟩) (matOf (V c main_v23 : S128x256.Idx → EReal))
    (rowVecOf (V c main_v21 : S1x256.Idx → EReal)) (matOf (V c main_v24 : S256x256.Idx → EReal)) (rowVecOf (V c main_v22 : S1x256.Idx → EReal)) q
  have h0 : rowOf (iblk0 V c 0 t : Vec Ideal S2000x128 .f32) p = rowOf (V c main_v20 : S50000x128.Idx → EReal) ⟨t.val * 2000 + p.val, row_lt t p⟩ :=
    funext fun k => blk_h V c t p k
  have h1 : matOf (iblk0 V c 1 t : Vec Ideal S128x256 .bf16) = matOf (V c main_v23 : S128x256.Idx → EReal) :=
    funext fun a => funext fun b => blk_w1 V c t a b
  have h2 : rowVecOf (iblk0 V c 2 t : Vec Ideal S1x256 .f32) = rowVecOf (V c main_v21 : S1x256.Idx → EReal) :=
    funext fun b => blk_b1 V c t b
  have h3 : matOf (iblk0 V c 3 t : Vec Ideal S256x256 .bf16) = matOf (V c main_v24 : S256x256.Idx → EReal) :=
    funext fun a => funext fun b => blk_w2 V c t a b
  have h4 : rowVecOf (iblk0 V c 4 t : Vec Ideal S1x256 .f32) = rowVecOf (V c main_v22 : S1x256.Idx → EReal) :=
    funext fun b => blk_b2 V c t b
  rw [h0, h1, h2, h3, h4]

/-- An index of the output is in point t's block iff its coordinates are in the block's ranges. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v25).slice (win0_5.rect t)).set ↔ _
  rw [View.set_slice_whole, Rect.mem_set_unit]
  exact Iff.rfl

/-- The 25 row blocks cover the output. -/
theorem cover (i : S50000x256.Idx) : ∃ t : Fin cfg0.N, (cfg0.win 5).flush t = true ∧ i ∈ ((cfg0.win 5).blk t).view.set := by
  have hN : cfg0.N = 25 := N_0
  have hi0 : (i 0).val < 50000 := (i 0).isLt
  have hi1 : (i 1).val < 256 := (i 1).isLt
  let t : Fin cfg0.N := ⟨(i 0).val / 2000, by rw [hN]; omega⟩
  obtain ⟨-, -, -, -, -, -, -, -, -, -, e0, e1⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 256 ≤ (i 1).val ∧ (i 1).val < win0_5.index t (1 : Fin 2) * 256 + 256; rw [e1]; omega

/-- The output array after the kernel: G of the arrays it found. -/
theorem final (c : Dev nD) : (dat0 V c).arrAt 5 cfg0.N = G (V c main_v20) (V c main_v23) (V c main_v21) (V c main_v24) (V c main_v22) :=
  (dat0 V c).arrAt_eq_of_cover 5 _ (fun t _ => flushed_eq V c t) cover

end Cert.KernelIdeal.Region0

end
-- ==== Proof.Region1.lean ====
/-
  The second kernel's output array.

  Point t takes rows 2000·t … 2000·t + 1999 of the aggregated array and the whole of each weight and bias, and writes
  back the same rows of the result: row p of the block is the layer's dense part on row p of the input block followed
  by the last affine map.  What a point writes is a block of one whole-array function, and the 25 blocks cover the 50000
  rows: the array ends holding that function.  Stated for any contents V the kernel may find in its arrays.
-/
import proofs.«107352_j44255343018792_2_alg».proof.Proof.Gen.KernelIdeal.Frame
import proofs.«107352_j44255343018792_2_alg».proof.Proof.Payload
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.Gin Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-- The result as one function of the seven arrays: row P is the dense part on row P of the aggregated array, then the
    last affine map. -/
def G (h : S50000x256.Idx → EReal) (w1 : S256x256.Idx → EReal) (b1 : S1x256.Idx → EReal) (w2 : S256x256.Idx → EReal)
    (b2 : S1x256.Idx → EReal) (wo : S256x128.Idx → EReal) (bo : S1x128.Idx → EReal) : S50000x128.Idx → EReal :=
  ofRows fun P => affine (mlpRow (rowOf h P) (matOf w1) (rowVecOf b1) (matOf w2) (rowVecOf b2)) (matOf wo) (rowVecOf bo)

/-- The block index maps over the grid: the input block and the output block move down the rows with the point, the
    weights and biases stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem row_lt (t : Fin cfg1.N) (p : Fin 2000) : t.val * 2000 + p.val < 50000 := by
  have hN : cfg1.N = 25 := N_1
  have := t.isLt; have := p.isLt; omega

/-- The input block at point t: rows 2000·t + p of the aggregated array. -/
theorem blk_h (c : Dev nD) (t : Fin cfg1.N) (p : Fin 2000) (k : Fin 256) :
    (iblk1 V c 0 t : Vec Ideal S2000x256 .f32) (ix2 p k) = (V c main_v42 : S50000x256.Idx → EReal) (ix2 ⟨t.val * 2000 + p.val, row_lt t p⟩ k) := by
  obtain ⟨e0, e1, -⟩ := idx_facts t
  unfold iblk1
  rw [View.read_apply]
  show (V c main_v42 : S50000x256.Idx → EReal) _ = _
  refine congrArg (V c main_v42 : S50000x256.Idx → EReal) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

theorem blk_w1 (c : Dev nD) (t : Fin cfg1.N) (a : Fin 256) (b : Fin 256) :
    (iblk1 V c 1 t : Vec Ideal S256x256 .bf16) (ix2 a b) = (V c main_v46 : S256x256.Idx → EReal) (ix2 a b) := by
  obtain ⟨-, -, e0, e1, -⟩ := idx_facts t
  unfold iblk1
  rw [View.read_apply]
  show (V c main_v46 : S256x256.Idx → EReal) _ = _
  refine congrArg (V c main_v46 : S256x256.Idx → EReal) (funext fun x => Fin.ext ?_)
  match x with
  | ⟨0, _⟩ => show win1_1.index t (0 : Fin 2) * 256 + 1 * a.val = a.val; rw [e0]; omega
  | ⟨1, _⟩ => show win1_1.index t (1 : Fin 2) * 256 + 1 * b.val = b.val; rw [e1]; omega

theorem blk_b1 (c : Dev nD) (t : Fin cfg1.N) (b : Fin 256) :
    (iblk1 V c 2 t : Vec Ideal S1x256 .f32) (ix2 (0 : Fin 1) b) = (V c main_v43 : S1x256.Idx → EReal) (ix2 (0 : Fin 1) b) := by
  obtain ⟨-, -, -, -, e0, e1, -⟩ := idx_facts t
  unfold iblk1
  rw [View.read_apply]
  show (V c main_v43 : S1x256.Idx → EReal) _ = _
  refine congrArg (V c main_v43 : S1x256.Idx → EReal) (funext fun x => Fin.ext ?_)
  match x with
  | ⟨0, _⟩ => show win1_2.index t (0 : Fin 2) * 1 + 1 * 0 = 0; rw [e0]
  | ⟨1, _⟩ => show win1_2.index t (1 : Fin 2) * 256 + 1 * b.val = b.val; rw [e1]; omega

theorem blk_w2 (c : Dev nD) (t : Fin cfg1.N) (a : Fin 256) (b : Fin 256) :
    (iblk1 V c 3 t : Vec Ideal S256x256 .bf16) (ix2 a b) = (V c main_v47 : S256x256.Idx → EReal) (ix2 a b) := by
  obtain ⟨-, -, -, -, -, -, e0, e1, -⟩ := idx_facts t
  unfold iblk1
  rw [View.read_apply]
  show (V c main_v47 : S256x256.Idx → EReal) _ = _
  refine congrArg (V c main_v47 : S256x256.Idx → EReal) (funext fun x => Fin.ext ?_)
  match x with
  | ⟨0, _⟩ => show win1_3.index t (0 : Fin 2) * 256 + 1 * a.val = a.val; rw [e0]; omega
  | ⟨1, _⟩ => show win1_3.index t (1 : Fin 2) * 256 + 1 * b.val = b.val; rw [e1]; omega

theorem blk_b2 (c : Dev nD) (t : Fin cfg1.N) (b : Fin 256) :
    (iblk1 V c 4 t : Vec Ideal S1x256 .f32) (ix2 (0 : Fin 1) b) = (V c main_v44 : S1x256.Idx → EReal) (ix2 (0 : Fin 1) b) := by
  obtain ⟨-, -, -, -, -, -, -, -, e0, e1, -⟩ := idx_facts t
  unfold iblk1
  rw [View.read_apply]
  show (V c main_v44 : S1x256.Idx → EReal) _ = _
  refine congrArg (V c main_v44 : S1x256.Idx → EReal) (funext fun x => Fin.ext ?_)
  match x with
  | ⟨0, _⟩ => show win1_4.index t (0 : Fin 2) * 1 + 1 * 0 = 0; rw [e0]
  | ⟨1, _⟩ => show win1_4.index t (1 : Fin 2) * 256 + 1 * b.val = b.val; rw [e1]; omega

theorem blk_wo (c : Dev nD) (t : Fin cfg1.N) (a : Fin 256) (b : Fin 128) :
    (iblk1 V c 5 t : Vec Ideal S256x128 .bf16) (ix2 a b) = (V c main_v48 : S256x128.Idx → EReal) (ix2 a b) := by
  obtain ⟨-, -, -, -, -, -, -, -, -, -, e0, e1, -⟩ := idx_facts t
  unfold iblk1
  rw [View.read_apply]
  show (V c main_v48 : S256x128.Idx → EReal) _ = _
  refine congrArg (V c main_v48 : S256x128.Idx → EReal) (funext fun x => Fin.ext ?_)
  match x with
  | ⟨0, _⟩ => show win1_5.index t (0 : Fin 2) * 256 + 1 * a.val = a.val; rw [e0]; omega
  | ⟨1, _⟩ => show win1_5.index t (1 : Fin 2) * 128 + 1 * b.val = b.val; rw [e1]; omega

theorem blk_bo (c : Dev nD) (t : Fin cfg1.N) (b : Fin 128) :
    (iblk1 V c 6 t : Vec Ideal S1x128 .f32) (ix2 (0 : Fin 1) b) = (V c main_v45 : S1x128.Idx → EReal) (ix2 (0 : Fin 1) b) := by
  obtain ⟨-, -, -, -, -, -, -, -, -, -, -, -, e0, e1, -⟩ := idx_facts t
  unfold iblk1
  rw [View.read_apply]
  show (V c main_v45 : S1x128.Idx → EReal) _ = _
  refine congrArg (V c main_v45 : S1x128.Idx → EReal) (funext fun x => Fin.ext ?_)
  match x with
  | ⟨0, _⟩ => show win1_6.index t (0 : Fin 2) * 1 + 1 * 0 = 0; rw [e0]
  | ⟨1, _⟩ => show win1_6.index t (1 : Fin 2) * 128 + 1 * b.val = b.val; rw [e1]; omega

/-- What point t writes back is block t of G of the arrays. -/
theorem flushed_eq (c : Dev nD) (t : Fin cfg1.N) :
    (dat1 V c).flushed 7 t = ((cfg1.win 7).blk t).view.read (Elt Ideal)
      (G (V c main_v42) (V c main_v46) (V c main_v43) (V c main_v47) (V c main_v44) (V c main_v48) (V c main_v45)) := by
  show (cfg1.win 7).cut (grid1.coords t) ((dat1 V c).after 7 t) = _
  rw [after1_7]
  unfold out1_7
  rw [View.canon_unit_zero hz]
  simp only [View.ld_unit_zero (S := S2000x256) hz, View.ld_unit_zero (S := S256x256) hz, View.ld_unit_zero (S := S1x256) hz,
    View.ld_unit_zero (S := S256x128) hz, View.ld_unit_zero (S := S1x128) hz]
  funext j
  obtain ⟨p, q, rfl⟩ : ∃ (p : Fin 2000) (q : Fin 128), j = ix2 p q := ⟨j 0, j 1, eq_ix2 j⟩
  refine (pay1_apply _ _ _ _ _ _ _ p q).trans ?_
  rw [View.read_apply]
  obtain ⟨-, -, -, -, -, -, -, -, -, -, -, -, -, -, e0, e1⟩ := idx_facts t
  have hemb : ((cfg1.win 7).blk t).view.emb (ix2 p q) = (ix2 ⟨t.val * 2000 + p.val, row_lt t p⟩ q : S50000x128.Idx) := by
    funext a; apply Fin.ext
    match a with
    | ⟨0, _⟩ => show win1_7.index t (0 : Fin 2) * 2000 + 1 * p.val = t.val * 2000 + p.val; rw [e0]; omega
    | ⟨1, _⟩ => show win1_7.index t (1 : Fin 2) * 128 + 1 * q.val = q.val; rw [e1]; omega
  rw [hemb]
  show _ = affine (mlpRow (rowOf (V c main_v42 : S50000x256.Idx → EReal) ⟨t.val * 2000 + p.val, row_lt t p⟩) (matOf (V c main_v46 : S256x256.Idx → EReal))
    (rowVecOf (V c main_v43 : S1x256.Idx → EReal)) (matOf (V c main_v47 : S256x256.Idx → EReal)) (rowVecOf (V c main_v44 : S1x256.Idx → EReal)))
    (matOf (V c main_v48 : S256x128.Idx → EReal)) (rowVecOf (V c main_v45 : S1x128.Idx → EReal)) q
  have h0 : rowOf (iblk1 V c 0 t : Vec Ideal S2000x256 .f32) p = rowOf (V c main_v42 : S50000x256.Idx → EReal) ⟨t.val * 2000 + p.val, row_lt t p⟩ :=
    funext fun k => blk_h V c t p k
  have h1 : matOf (iblk1 V c 1 t : Vec Ideal S256x256 .bf16) = matOf (V c main_v46 : S256x256.Idx → EReal) :=
    funext fun a => funext fun b => blk_w1 V c t a b
  have h2 : rowVecOf (iblk1 V c 2 t : Vec Ideal S1x256 .f32) = rowVecOf (V c main_v43 : S1x256.Idx → EReal) :=
    funext fun b => blk_b1 V c t b
  have h3 : matOf (iblk1 V c 3 t : Vec Ideal S256x256 .bf16) = matOf (V c main_v47 : S256x256.Idx → EReal) :=
    funext fun a => funext fun b => blk_w2 V c t a b
  have h4 : rowVecOf (iblk1 V c 4 t : Vec Ideal S1x256 .f32) = rowVecOf (V c main_v44 : S1x256.Idx → EReal) :=
    funext fun b => blk_b2 V c t b
  have h5 : matOf (iblk1 V c 5 t : Vec Ideal S256x128 .bf16) = matOf (V c main_v48 : S256x128.Idx → EReal) :=
    funext fun a => funext fun b => blk_wo V c t a b
  have h6 : rowVecOf (iblk1 V c 6 t : Vec Ideal S1x128 .f32) = rowVecOf (V c main_v45 : S1x128.Idx → EReal) :=
    funext fun b => blk_bo V c t b
  rw [h0, h1, h2, h3, h4, h5, h6]

/-- An index of the result is in point t's block iff its coordinates are in the block's ranges. -/
theorem mem_blk (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v49).slice (win1_7.rect t)).set ↔ _
  rw [View.set_slice_whole, Rect.mem_set_unit]
  exact Iff.rfl

/-- The 25 row blocks cover the result. -/
theorem cover (i : S50000x128.Idx) : ∃ t : Fin cfg1.N, (cfg1.win 7).flush t = true ∧ i ∈ ((cfg1.win 7).blk t).view.set := by
  have hN : cfg1.N = 25 := N_1
  have hi0 : (i 0).val < 50000 := (i 0).isLt
  have hi1 : (i 1).val < 128 := (i 1).isLt
  let t : Fin cfg1.N := ⟨(i 0).val / 2000, by rw [hN]; omega⟩
  obtain ⟨-, -, -, -, -, -, -, -, -, -, -, -, -, -, e0, e1⟩ := idx_facts t
  have ht : t.val = (i 0).val / 2000 := rfl
  refine ⟨t, flush1_7 t, ?_⟩
  rw [mem_blk]
  intro a
  match a with
  | ⟨0, _⟩ => show win1_7.index t (0 : Fin 2) * 2000 ≤ (i 0).val ∧ (i 0).val < win1_7.index t (0 : Fin 2) * 2000 + 2000; rw [e0, ht]; omega
  | ⟨1, _⟩ => show win1_7.index t (1 : Fin 2) * 128 ≤ (i 1).val ∧ (i 1).val < win1_7.index t (1 : Fin 2) * 128 + 128; rw [e1]; omega

/-- The result array after the kernel: G of the arrays it found. -/
theorem final (c : Dev nD) : (dat1 V c).arrAt 7 cfg1.N
    = G (V c main_v42) (V c main_v46) (V c main_v43) (V c main_v47) (V c main_v44) (V c main_v48) (V c main_v45) :=
  (dat1 V c).arrAt_eq_of_cover 7 _ (fun t _ => flushed_eq V c t) cover

end Cert.KernelIdeal.Region1

end
-- ==== Proof.KernelValue.lean ====
/-
  The program's result as one function of its arguments.

  The result buffer ends at the second kernel's output: the second dense part and the last affine map, row by row, of
  the second aggregation of the first kernel's output, which is the first dense part, row by row, of the first
  aggregation of the node features.  Every array a kernel finds is traced back through the host operations to the
  arguments: weights rounded to the short format, biases recast as one-row matrices.
-/
import proofs.«107352_j44255343018792_2_alg».proof.Proof.KernelHost
import proofs.«107352_j44255343018792_2_alg».proof.Proof.KernelRun
import proofs.«107352_j44255343018792_2_alg».proof.Proof.Region0
import proofs.«107352_j44255343018792_2_alg».proof.Proof.Region1

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.HostSide

/-- The result as a function of the fourteen arguments. -/
def kernelFn (x0 : FVec Ideal S50000x128 .f32) (x1 : IVec S2x800000 32) (x2 : FVec Ideal S_ .f32) (x3 : FVec Ideal S128x256 .f32)
    (x4 : FVec Ideal S256 .f32) (x5 : FVec Ideal S256x256 .f32) (x6 : FVec Ideal S256 .f32) (x7 : FVec Ideal S_ .f32)
    (x8 : FVec Ideal S256x256 .f32) (x9 : FVec Ideal S256 .f32) (x10 : FVec Ideal S256x256 .f32) (x11 : FVec Ideal S256 .f32)
    (x12 : FVec Ideal S256x128 .f32) (x13 : FVec Ideal S128 .f32) : S50000x128.Idx → EReal :=
  Region1.G
    (agg1
      (Region0.G (agg0 x0 (srcRow x1) (dstRow x1) x2) (truncf (F := Ideal) .bf16 x3 bitsLt_bf16_f32 : FVec Ideal S128x256 .bf16)
        (shapeCast S1x256 x4 shapeCasts_S256_S1x256) (truncf (F := Ideal) .bf16 x5 bitsLt_bf16_f32 : FVec Ideal S256x256 .bf16)
        (shapeCast S1x256 x6 shapeCasts_S256_S1x256))
      (srcRow x1) (dstRow x1) x7)
    (truncf (F := Ideal) .bf16 x8 bitsLt_bf16_f32 : FVec Ideal S256x256 .bf16) (shapeCast S1x256 x9 shapeCasts_S256_S1x256)
    (truncf (F := Ideal) .bf16 x10 bitsLt_bf16_f32 : FVec Ideal S256x256 .bf16) (shapeCast S1x256 x11 shapeCasts_S256_S1x256)
    (truncf (F := Ideal) .bf16 x12 bitsLt_bf16_f32 : FVec Ideal S256x128 .bf16) (shapeCast S1x128 x13 shapeCasts_S128_S1x128)

variable (m : (ℓ : Loc nD τ sig) → Buf (Elt Ideal) ℓ) (ρ : Dev nD → PrngReg)

/-- What the first kernel leaves in its output array, from the arguments. -/
theorem first_out (c : Dev nD) : (W2 m ρ c (Proc.devRef .tc main_v25) : S50000x256.Idx → EReal)
    = Region0.G (agg0 (m ((c : Thread nD τ).loc main_arg0)) (srcRow (m ((c : Thread nD τ).loc main_arg1))) (dstRow (m ((c : Thread nD τ).loc main_arg1)))
          (m ((c : Thread nD τ).loc main_arg2)))
        (truncf (F := Ideal) .bf16 (m ((c : Thread nD τ).loc main_arg3) : FVec Ideal S128x256 .f32) bitsLt_bf16_f32 : FVec Ideal S128x256 .bf16)
        (shapeCast S1x256 (m ((c : Thread nD τ).loc main_arg4) : FVec Ideal S256 .f32) shapeCasts_S256_S1x256)
        (truncf (F := Ideal) .bf16 (m ((c : Thread nD τ).loc main_arg5) : FVec Ideal S256x256 .f32) bitsLt_bf16_f32 : FVec Ideal S256x256 .bf16)
        (shapeCast S1x256 (m ((c : Thread nD τ).loc main_arg6) : FVec Ideal S256 .f32) shapeCasts_S256_S1x256) := by
  refine (W2_arr m ρ c 5).trans ?_
  refine (Region0.final (V1 m ρ) c).trans ?_
  rw [V1_v20, V1_v23, V1_v21, V1_v24, V1_v22]

/-- The result buffer's last contents, from the arguments. -/
theorem result_eq (c : Dev nD) : (W4 m ρ c (Proc.devRef .tc main_v49) : S50000x128.Idx → EReal)
    = kernelFn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) := by
  refine (W4_arr m ρ c 7).trans ?_
  refine (Region1.final (V3 m ρ) c).trans ?_
  rw [V3_v42, V3_v46, V3_v43, V3_v47, V3_v44, V3_v48, V3_v45, first_out, W2_v1, W2_v3, W2_arg7, W2_arg8, W2_arg9, W2_arg10,
    W2_arg11, W2_arg12, W2_arg13]
  rfl

/-- The run: every weakly fair execution ends with the result at `kernelFn` of the arguments and the arguments as launched. -/
theorem run : θ_run defs (onTc (τ := τ) (main (F := Ideal))) ⟨m, fun _ => 0, ρ⟩ (fun r => ∀ c : Dev nD,
      r.2.mem ((c.tc : Thread nD τ).loc main_v49)
        = kernelFn (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) (m ((c : Thread nD τ).loc main_arg11))
            (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result_eq m ρ c), (h c).2⟩) (Cert.KernelIdeal.Run.run_named (F := Ideal) m ρ)

end Cert.KernelIdeal.Result

end
-- ==== Proof.RefValue.lean ====
/-
  The reference, layer by layer.

  The reference aggregates (h ↦ (1 + eps)·h + the sources' rows scatter-added at the destinations into zeros), applies the
  dense part of a layer to every row, aggregates again, applies the second dense part and the last affine map.  Each dense
  part is read here at an entry, for ANY array going in: row P of the outcome is the dense part on row P.  The biases are
  vectors broadcast down the rows; the positive part compares with a broadcast zero.
-/
import proofs.«107352_j44255343018792_2_alg».proof.Proof.Gen.ReferenceIdeal.Read
import proofs.«107352_j44255343018792_2_alg».proof.Proof.LibDot
import proofs.«107352_j44255343018792_2_alg».proof.Proof.Mlp

noncomputable section

namespace Cert.ReferenceIdeal.RefValue

open Idealize.ShloMosaic Idealize.ShloMosaic.ValueIdx Cert.ReferenceIdeal Cert.ReferenceIdeal.Gen Cert.ReferenceIdeal.Read Cert.Gin
open scoped BigOperators

/-! ## The three products at an entry -/

theorem dotA (lhs : FVec Ideal S50000x128 .f32) (rhs : FVec Ideal S128x256 .f32) (p : Fin 50000) (q : Fin 256) :
    Host.dotGeneral dot_S50000x128_S128x256_S50000x256_1_0_0_1_n_n none lhs rhs (ix2 p q) = ∑ i : Fin 128, lhs (ix2 p i) * rhs (ix2 i q) := by
  unfold Host.dotGeneral
  exact Cert.LibDot.dotGeneral_apply dot_S50000x128_S128x256_S50000x256_1_0_0_1_n_n rfl rfl lhs_main_v23_0 lhs_main_v23_1 rhs_main_v23_0 rhs_main_v23_1 none _ lhs rhs p q

theorem dotB (lhs : FVec Ideal S50000x256 .f32) (rhs : FVec Ideal S256x256 .f32) (p : Fin 50000) (q : Fin 256) :
    Host.dotGeneral dot_S50000x256_S256x256_S50000x256_1_0_0_1_n_n none lhs rhs (ix2 p q) = ∑ i : Fin 256, lhs (ix2 p i) * rhs (ix2 i q) := by
  unfold Host.dotGeneral
  exact Cert.LibDot.dotGeneral_apply dot_S50000x256_S256x256_S50000x256_1_0_0_1_n_n rfl rfl lhs_main_v28_0 lhs_main_v28_1 rhs_main_v28_0 rhs_main_v28_1 none _ lhs rhs p q

theorem dotC (lhs : FVec Ideal S50000x256 .f32) (rhs : FVec Ideal S256x128 .f32) (p : Fin 50000) (q : Fin 128) :
    Host.dotGeneral dot_S50000x256_S256x128_S50000x128_1_0_0_1_n_n none lhs rhs (ix2 p q) = ∑ i : Fin 256, lhs (ix2 p i) * rhs (ix2 i q) := by
  unfold Host.dotGeneral
  exact Cert.LibDot.dotGeneral_apply dot_S50000x256_S256x128_S50000x128_1_0_0_1_n_n rfl rfl lhs_main_v60_0 lhs_main_v60_1 rhs_main_v60_0 rhs_main_v60_1 none _ lhs rhs p q

/-! ## Biases and the zero of the positive part -/

/-- A 256-vector broadcast down the rows, at (P, q): its entry q. -/
theorem bias256 (b : FVec Ideal S256 .f32) (P : Fin 50000) (q : Fin 256) :
    broadcastInDim S50000x256 ![0, 1] bcast_S1x256_S50000x256_0_1 (broadcastInDim S1x256 ![1] bcast_S256_S1x256_1 b) (ix2 P q) = b (ix1 q) := by
  refine (val_main_v25_apply (F := Ideal) b (ix2 P q)).trans ?_
  refine (val_main_v24_apply (F := Ideal) b _).trans ?_
  exact congrArg b (funext fun a => by match a with | ⟨0, _⟩ => rfl)

/-- A 128-vector broadcast down the rows, at (P, q): its entry q. -/
theorem bias128 (b : FVec Ideal S128 .f32) (P : Fin 50000) (q : Fin 128) :
    broadcastInDim S50000x128 ![0, 1] bcast_S1x128_S50000x128_0_1 (broadcastInDim S1x128 ![1] bcast_S128_S1x128_1 b) (ix2 P q) = b (ix1 q) := by
  refine (val_main_v62_apply (F := Ideal) b (ix2 P q)).trans ?_
  refine (val_main_v61_apply (F := Ideal) b _).trans ?_
  exact congrArg b (funext fun a => by match a with | ⟨0, _⟩ => rfl)

/-- The broadcast zero at any entry. -/
theorem zeros256 (i : S50000x256.Idx) :
    broadcastInDim S50000x256 ![] bcast_S_S50000x256 (constant (F := Ideal) S_ .f32 0x00000000#32) i = (0 : EReal) := by
  refine (val_main_call0_v0_apply (F := Ideal) i).trans ?_
  exact Ideal.ofBits_zero_f32

/-! ## The dense parts, for any array going in -/

/-- The first layer's dense part as the reference writes it. -/
def dense0 (h : FVec Ideal S50000x128 .f32) (x3 : FVec Ideal S128x256 .f32) (x4 : FVec Ideal S256 .f32) (x5 : FVec Ideal S256x256 .f32)
    (x6 : FVec Ideal S256 .f32) : FVec Ideal S50000x256 .f32 :=
  addf (Host.dotGeneral dot_S50000x256_S256x256_S50000x256_1_0_0_1_n_n none
      (maximumf (addf (Host.dotGeneral dot_S50000x128_S128x256_S50000x256_1_0_0_1_n_n none h x3) (val_main_v25 (F := Ideal) x4))
        (val_main_call0_v0 (F := Ideal))) x5) (val_main_v30 (F := Ideal) x6)

/-- The second layer's dense part and the last affine map as the reference writes them. -/
def dense1 (h : FVec Ideal S50000x256 .f32) (x8 : FVec Ideal S256x256 .f32) (x9 : FVec Ideal S256 .f32) (x10 : FVec Ideal S256x256 .f32)
    (x11 : FVec Ideal S256 .f32) (x12 : FVec Ideal S256x128 .f32) (x13 : FVec Ideal S128 .f32) : FVec Ideal S50000x128 .f32 :=
  addf (Host.dotGeneral dot_S50000x256_S256x128_S50000x128_1_0_0_1_n_n none
    (addf (Host.dotGeneral dot_S50000x256_S256x256_S50000x256_1_0_0_1_n_n none
      (maximumf (addf (Host.dotGeneral dot_S50000x256_S256x256_S50000x256_1_0_0_1_n_n none h x8) (val_main_v53 (F := Ideal) x9))
        (val_main_call1_v0 (F := Ideal))) x10) (val_main_v58 (F := Ideal) x11)) x12) (val_main_v62 (F := Ideal) x13)

/-- The hidden row: positive part of the first affine map, at (P, l). -/
theorem hidden0 (h : FVec Ideal S50000x128 .f32) (x3 : FVec Ideal S128x256 .f32) (x4 : FVec Ideal S256 .f32) (P : Fin 50000) (l : Fin 256) :
    maximumf (addf (Host.dotGeneral dot_S50000x128_S128x256_S50000x256_1_0_0_1_n_n none h x3) (val_main_v25 (F := Ideal) x4))
        (val_main_call0_v0 (F := Ideal)) (ix2 P l)
      = pos (affine (rowOf h P) (matOf x3) (vecOf x4)) l := by
  rw [maximumf_apply, addf_apply, dotA]
  unfold val_main_v25 val_main_v24 val_main_call0_v0 val_main_call0_cst
  rw [bias256, zeros256]
  rfl

theorem hidden1 (h : FVec Ideal S50000x256 .f32) (x8 : FVec Ideal S256x256 .f32) (x9 : FVec Ideal S256 .f32) (P : Fin 50000) (l : Fin 256) :
    maximumf (addf (Host.dotGeneral dot_S50000x256_S256x256_S50000x256_1_0_0_1_n_n none h x8) (val_main_v53 (F := Ideal) x9))
        (val_main_call1_v0 (F := Ideal)) (ix2 P l)
      = pos (affine (rowOf h P) (matOf x8) (vecOf x9)) l := by
  rw [maximumf_apply, addf_apply, dotB]
  unfold val_main_v53 val_main_v52 val_main_call1_v0 val_main_call1_cst
  rw [bias256, zeros256]
  rfl

/-- Row P of the first dense part is the dense part on row P. -/
theorem dense0_apply (h : FVec Ideal S50000x128 .f32) (x3 : FVec Ideal S128x256 .f32) (x4 : FVec Ideal S256 .f32) (x5 : FVec Ideal S256x256 .f32)
    (x6 : FVec Ideal S256 .f32) (P : Fin 50000) (q : Fin 256) :
    dense0 h x3 x4 x5 x6 (ix2 P q) = mlpRow (rowOf h P) (matOf x3) (vecOf x4) (matOf x5) (vecOf x6) q := by
  unfold dense0
  rw [addf_apply, dotB]
  unfold val_main_v30 val_main_v29
  rw [bias256]
  unfold mlpRow
  refine congrArg (· + x6 (ix1 q)) (Finset.sum_congr rfl fun l _ => ?_)
  exact congrArg (· * x5 (ix2 l q)) (hidden0 h x3 x4 P l)

/-- Row P of the second dense part with the last affine map. -/
theorem dense1_apply (h : FVec Ideal S50000x256 .f32) (x8 : FVec Ideal S256x256 .f32) (x9 : FVec Ideal S256 .f32) (x10 : FVec Ideal S256x256 .f32)
    (x11 : FVec Ideal S256 .f32) (x12 : FVec Ideal S256x128 .f32) (x13 : FVec Ideal S128 .f32) (P : Fin 50000) (q : Fin 128) :
    dense1 h x8 x9 x10 x11 x12 x13 (ix2 P q)
      = affine (mlpRow (rowOf h P) (matOf x8) (vecOf x9) (matOf x10) (vecOf x11)) (matOf x12) (vecOf x13) q := by
  unfold dense1
  rw [addf_apply, dotC]
  unfold val_main_v62 val_main_v61
  rw [bias128]
  refine congrArg (· + x13 (ix1 q)) (Finset.sum_congr rfl fun r _ => ?_)
  refine congrArg (· * x12 (ix2 r q)) ?_
  rw [addf_apply, dotB]
  unfold val_main_v58 val_main_v57
  rw [bias256]
  unfold mlpRow
  refine congrArg (· + x11 (ix1 r)) (Finset.sum_congr rfl fun l _ => ?_)
  exact congrArg (· * x10 (ix2 l r)) (hidden1 h x8 x9 P l)

/-! ## The reference's stages are these dense parts of its aggregations -/

theorem v31_eq (x0 : FVec Ideal S50000x128 .f32) (x1 : IVec S2x800000 32) (x2 : FVec Ideal S_ .f32) (x3 : FVec Ideal S128x256 .f32)
    (x4 : FVec Ideal S256 .f32) (x5 : FVec Ideal S256x256 .f32) (x6 : FVec Ideal S256 .f32) :
    val_main_v31 (F := Ideal) x0 x1 x2 x3 x4 x5 x6 = dense0 (val_main_v22 (F := Ideal) x0 x1 x2) x3 x4 x5 x6 := rfl

theorem v63_eq (x0 : FVec Ideal S50000x128 .f32) (x1 : IVec S2x800000 32) (x2 : FVec Ideal S_ .f32) (x3 : FVec Ideal S128x256 .f32)
    (x4 : FVec Ideal S256 .f32) (x5 : FVec Ideal S256x256 .f32) (x6 : FVec Ideal S256 .f32) (x7 : FVec Ideal S_ .f32)
    (x8 : FVec Ideal S256x256 .f32) (x9 : FVec Ideal S256 .f32) (x10 : FVec Ideal S256x256 .f32) (x11 : FVec Ideal S256 .f32)
    (x12 : FVec Ideal S256x128 .f32) (x13 : FVec Ideal S128 .f32) :
    val_main_v63 (F := Ideal) x0 x1 x2 x3 x4 x5 x6 x7 x8 x9 x10 x11 x12 x13
      = dense1 (val_main_v50 (F := Ideal) x0 x1 x2 x3 x4 x5 x6 x7) x8 x9 x10 x11 x12 x13 := rfl

end Cert.ReferenceIdeal.RefValue

end
-- ==== Proof.LibScatterInit.lean ====
/-
  A scatter-add into an operand is the operand plus a scatter-add into zeros.

  At the ideal reading the host's accumulating scatter gives, at every index, the operand's entry plus the sum of the
  updates that land there.  So adding the same updates at the same places into x, or into an all-zero array and then
  adding x, is the same array: x i + Σ u = x i + (0 + Σ u).  No finiteness is asked: only that 0 is neutral.
  Any shapes, any dimension numbers.  Library imports only.
-/
import Idealize.ShloMosaic.PureOps.Ideal.Laws
import Idealize.ShloMosaic.Lib.ValueIdx

noncomputable section

namespace Cert.LibScatterInit

open Idealize.ShloMosaic Idealize.ShloMosaic.ValueIdx

/-- The accumulating scatter at an index: the operand's entry plus the sum of the updates landing there. -/
theorem scatterAdd_apply {s si su : Shape} {φ : FTy} {w : ℕ} (d : ScatterDims s si su) (x : FVec Ideal s φ)
    (idx : IVec si w) (u : FVec Ideal su φ) (i : s.Idx) :
    Host.scatterAdd d x idx u i = x i + ∑ j ∈ Finset.univ.filter (fun j => d.resultIdx? j idx = some i), u j := rfl

/-- Scatter-adding into x is x plus the scatter-add of the same updates into any array z that is zero everywhere. -/
theorem scatterAdd_eq_add_zeros {s si su : Shape} {φ : FTy} {w : ℕ} (d : ScatterDims s si su) (x z : FVec Ideal s φ)
    (hz : ∀ i, z i = 0) (idx : IVec si w) (u : FVec Ideal su φ) :
    Host.scatterAdd d x idx u = addf x (Host.scatterAdd d z idx u) := by
  funext i
  rw [addf_apply, scatterAdd_apply, scatterAdd_apply, hz i, zero_add]

end Cert.LibScatterInit

end
-- ==== Proof.Bridge.lean ====
/-
  The two programs compute one function.

  Both aggregate, apply a dense part row by row, aggregate again, and apply the second dense part with the last affine map.
  The dense parts agree row by row (the kernels' roundings are the identity on exact values and their one-row biases are
  the reference's vectors).  The aggregations differ only in where (1 + eps)·h enters: the kernel scatter-adds the
  gathered rows INTO it, the reference scatter-adds them into zeros and adds it afterwards.  Since the accumulating
  scatter is the operand plus the sum of the updates landing at each place, and 0 is neutral, the two are the same array.
  The edge list goes through the same slicing, recasting and wrapping on both sides.
-/
import proofs.«107352_j44255343018792_2_alg».proof.Proof.KernelValue
import proofs.«107352_j44255343018792_2_alg».proof.Proof.RefValue
import proofs.«107352_j44255343018792_2_alg».proof.Proof.LibScatterInit
import Idealize.ShloMosaic.Lib.ValueLayout

noncomputable section

namespace Cert.Bridge

open Idealize.ShloMosaic Idealize.ShloMosaic.ValueIdx Cert.Gin
open Cert.KernelIdeal.HostSide Cert.KernelIdeal.Result Cert.ReferenceIdeal.Read Cert.ReferenceIdeal.RefValue

/-! ## The edge list -/

theorem src_eq (e : IVec Cert.KernelIdeal.S2x800000 32) : wrap (srcRow e) = val_main_v10 (F := Ideal) e := rfl
theorem dst_eq (e : IVec Cert.KernelIdeal.S2x800000 32) : wrap (dstRow e) = val_main_v17 (F := Ideal) e := rfl
theorem src_eq' (e : IVec Cert.KernelIdeal.S2x800000 32) : wrap (srcRow e) = val_main_v38 (F := Ideal) e := rfl
theorem dst_eq' (e : IVec Cert.KernelIdeal.S2x800000 32) : wrap (dstRow e) = val_main_v45 (F := Ideal) e := rfl

/-! ## The aggregations -/

theorem zeros128 (i : Cert.ReferenceIdeal.S50000x128.Idx) : val_main_v4 (F := Ideal) i = (0 : EReal) := by
  refine (val_main_v4_apply (F := Ideal) i).trans ?_
  exact Ideal.ofBits_zero_f32

theorem zeros256 (i : Cert.ReferenceIdeal.S50000x256.Idx) : val_main_v32 (F := Ideal) i = (0 : EReal) := by
  refine (val_main_v32_apply (F := Ideal) i).trans ?_
  exact Ideal.ofBits_zero_f32

/-- The first aggregation: scatter-adding into (1 + eps)·x is (1 + eps)·x plus the scatter-add into zeros. -/
theorem agg0_eq (x : FVec Ideal Cert.KernelIdeal.S50000x128 .f32) (e : IVec Cert.KernelIdeal.S2x800000 32) (eps : FVec Ideal Cert.KernelIdeal.S_ .f32) :
    agg0 x (srcRow e) (dstRow e) eps = val_main_v22 (F := Ideal) x e eps := by
  unfold agg0
  rw [Cert.LibScatterInit.scatterAdd_eq_add_zeros _ _ (val_main_v4 (F := Ideal)) zeros128, src_eq, dst_eq]
  rfl

/-- The second aggregation, for any array going in. -/
theorem agg1_eq (h : FVec Ideal Cert.KernelIdeal.S50000x256 .f32) (e : IVec Cert.KernelIdeal.S2x800000 32) (eps : FVec Ideal Cert.KernelIdeal.S_ .f32) :
    agg1 h (srcRow e) (dstRow e) eps
      = addf (mulf (val_main_v48 (F := Ideal) eps) h)
          (Host.scatterAdd Cert.ReferenceIdeal.scatter_S50000x256_S800000x1_S800000x256_1_0_0_1 (val_main_v32 (F := Ideal)) (val_main_v45 (F := Ideal) e)
            (Host.gather Cert.ReferenceIdeal.gather_S50000x256_S800000x1_S800000x256_1_0_n_n_0_1_1256 h (val_main_v38 (F := Ideal) e))) := by
  unfold agg1
  rw [Cert.LibScatterInit.scatterAdd_eq_add_zeros _ _ (val_main_v32 (F := Ideal)) zeros256, src_eq', dst_eq']
  rfl

/-! ## Weights and biases -/

/-- A bias recast as a one-row matrix has the vector's entries. -/
theorem bias_row {a : ℕ} (b : (⟨1, ![a]⟩ : Shape).Idx → EReal) (h : (⟨1, ![a]⟩ : Shape).ShapeCasts ⟨2, ![1, a]⟩) :
    rowVecOf (shapeCast ⟨2, ![1, a]⟩ b h) = vecOf b :=
  funext fun j => shapeCast_a_1a_apply b h 0 j

/-! ## The layers -/

/-- The first kernel's output is the reference's first layer. -/
theorem layer0_eq (x0 : FVec Ideal Cert.KernelIdeal.S50000x128 .f32) (x1 : IVec Cert.KernelIdeal.S2x800000 32) (x2 : FVec Ideal Cert.KernelIdeal.S_ .f32) (x3 : FVec Ideal Cert.KernelIdeal.S128x256 .f32)
    (x4 : FVec Ideal Cert.KernelIdeal.S256 .f32) (x5 : FVec Ideal Cert.KernelIdeal.S256x256 .f32) (x6 : FVec Ideal Cert.KernelIdeal.S256 .f32) :
    Cert.KernelIdeal.Region0.G (agg0 x0 (srcRow x1) (dstRow x1) x2) (truncf (F := Ideal) .bf16 x3 Cert.KernelIdeal.Gen.bitsLt_bf16_f32 : FVec Ideal Cert.KernelIdeal.S128x256 .bf16)
        (shapeCast Cert.KernelIdeal.S1x256 x4 Cert.KernelIdeal.Gen.shapeCasts_S256_S1x256) (truncf (F := Ideal) .bf16 x5 Cert.KernelIdeal.Gen.bitsLt_bf16_f32 : FVec Ideal Cert.KernelIdeal.S256x256 .bf16)
        (shapeCast Cert.KernelIdeal.S1x256 x6 Cert.KernelIdeal.Gen.shapeCasts_S256_S1x256)
      = val_main_v31 (F := Ideal) x0 x1 x2 x3 x4 x5 x6 := by
  refine ext_rows _ _ fun P q => ?_
  rw [v31_eq, dense0_apply, ← agg0_eq]
  unfold Cert.KernelIdeal.Region0.G
  rw [ofRows_ix2, bias_row, bias_row]
  rfl

/-- The whole: the kernel program's function of the arguments is the reference's. -/
theorem kernel_eq_reference (x0 : FVec Ideal Cert.KernelIdeal.S50000x128 .f32) (x1 : IVec Cert.KernelIdeal.S2x800000 32) (x2 : FVec Ideal Cert.KernelIdeal.S_ .f32) (x3 : FVec Ideal Cert.KernelIdeal.S128x256 .f32)
    (x4 : FVec Ideal Cert.KernelIdeal.S256 .f32) (x5 : FVec Ideal Cert.KernelIdeal.S256x256 .f32) (x6 : FVec Ideal Cert.KernelIdeal.S256 .f32) (x7 : FVec Ideal Cert.KernelIdeal.S_ .f32)
    (x8 : FVec Ideal Cert.KernelIdeal.S256x256 .f32) (x9 : FVec Ideal Cert.KernelIdeal.S256 .f32) (x10 : FVec Ideal Cert.KernelIdeal.S256x256 .f32) (x11 : FVec Ideal Cert.KernelIdeal.S256 .f32)
    (x12 : FVec Ideal Cert.KernelIdeal.S256x128 .f32) (x13 : FVec Ideal Cert.KernelIdeal.S128 .f32) :
    kernelFn x0 x1 x2 x3 x4 x5 x6 x7 x8 x9 x10 x11 x12 x13
      = val_main_v63 (F := Ideal) x0 x1 x2 x3 x4 x5 x6 x7 x8 x9 x10 x11 x12 x13 := by
  unfold kernelFn
  rw [layer0_eq, agg1_eq]
  refine ext_rows _ _ fun P q => ?_
  rw [v63_eq, dense1_apply]
  unfold Cert.KernelIdeal.Region1.G
  rw [ofRows_ix2, bias_row, bias_row, bias_row]
  rfl

end Cert.Bridge

end
-- ==== Proof.lean ====
/-
  Two layers of a graph network on 50000 nodes and 800000 edges, then a linear map: each layer adds to (1 + eps)·h the
  rows of every edge's source node at its destination node, and sends every row through h ↦ max(h·W1 + b1, 0)·W2 + b2.
  The kernel program does the edge sums on the host, adding the gathered rows INTO (1 + eps)·h, and the dense parts in two
  kernels over blocks of 2000 rows with weights rounded to a short float format; the reference adds the edge sums into
  zeros, then adds (1 + eps)·h, and multiplies whole matrices.

  On exact values the roundings are the identity, a matrix product into a zero accumulator is the textbook sum, a block
  of rows of a row-wise map is the map on those rows, and x + Σ u = x + (0 + Σ u): the two programs compute one function
  of their arguments.  No finiteness is used.  The pass to exact values rewrote nothing, so that conjunct is trivial; the
  three programs' runs terminate and leave their arguments as they were.
-/
import proofs.«107352_j44255343018792_2_alg».proof.Defs
import proofs.«107352_j44255343018792_2_alg».proof.Proof.Gen.Kernel
import proofs.«107352_j44255343018792_2_alg».proof.Proof.Gen.Kernel.Skeleton
import proofs.«107352_j44255343018792_2_alg».proof.Proof.Gen.Kernel.Launch
import proofs.«107352_j44255343018792_2_alg».proof.Proof.Gen.Kernel.Points
import proofs.«107352_j44255343018792_2_alg».proof.Proof.Gen.Kernel.Frame
import proofs.«107352_j44255343018792_2_alg».proof.Proof.Gen.KernelIdeal
import proofs.«107352_j44255343018792_2_alg».proof.Proof.Gen.KernelIdeal.Skeleton
import proofs.«107352_j44255343018792_2_alg».proof.Proof.Gen.KernelIdeal.Launch
import proofs.«107352_j44255343018792_2_alg».proof.Proof.Gen.KernelIdeal.Points
import proofs.«107352_j44255343018792_2_alg».proof.Proof.Gen.KernelIdeal.Frame
import proofs.«107352_j44255343018792_2_alg».proof.Proof.Gen.ReferenceIdeal
import proofs.«107352_j44255343018792_2_alg».proof.Proof.Gen.ReferenceIdeal.Run
import proofs.«107352_j44255343018792_2_alg».proof.Proof.Gen.ReferenceIdeal.Read
import proofs.«107352_j44255343018792_2_alg».proof.Proof.Gen.Pre_finite_inputs
import proofs.«107352_j44255343018792_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's function of the (shared) arguments in their result buffers. -/
theorem algebraic : Cert.algebraic_KernelIdeal_ReferenceIdeal := by
  intro m ρ m' ρ' _ hagree
  refine ⟨fun c => Cert.ReferenceIdeal.Read.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.Bridge.kernel_eq_reference _ _ _ _ _ _ _ _ _ _ _ _ _ _), (h c).2⟩)
      (Cert.KernelIdeal.Result.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v63_eq]
    obtain ⟨a0, a1, a2, a3, a4, a5, a6, a7, a8, a9, a10, a11, a12, a13⟩ := hagree c
    rw [a0, a1, a2, a3, a4, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
